-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2x32x512x512 : Shape := ⟨5, ![2, 2, 32, 512, 512]⟩
abbrev S2x32x512x512 : Shape := ⟨4, ![2, 32, 512, 512]⟩
abbrev S_ : Shape := ⟨0, ![]⟩

class Facts : Prop where
  bcast_S_S2x2x32x512x512 : S_.BroadcastsInDim S2x2x32x512x512 (![] : Fin 0 → Fin S2x2x32x512x512.rank)
  reducesTo_S2x2x32x512x512_S_d0_1_2_3_4 : S2x2x32x512x512.ReducesTo [0, 1, 2, 3, 4] S_
  h_S_ : 0 < S_.numel

variable [Facts]

def fn {F : FTy → Type} [FloatOps F] (main_arg0 : FVec F S2x2x32x512x512 .f32) (main_arg1 : IVec S2x32x512x512 32) : IVec S_ 1 :=
  let main_v0 : FVec F S2x2x32x512x512 .f32 := Host.absf main_arg0
  let main_cst : FVec F S_ .f32 := constant S_ .f32 0x7F800000#32
  let main_v1 : FVec F S2x2x32x512x512 .f32 := broadcastInDim S2x2x32x512x512 ![] bcast_S_S2x2x32x512x512 main_cst
  let main_v2 : IVec S2x2x32x512x512 1 := cmpf .olt main_v0 main_v1
  let main_c : IVec S_ 1 := constantI S_ 1 1#1
  let main_v3 : IVec S_ 1 := (fun x v => Host.reduce IntOp.andi x v reducesTo_S2x2x32x512x512_S_d0_1_2_3_4 h_S_) main_v2 main_c
  main_v3
-- ==== Kernel.lean ====
abbrev S2x2x32x512x512 : Shape := ⟨5, ![2, 2, 32, 512, 512]⟩
abbrev S2x32x512x512 : Shape := ⟨4, ![2, 32, 512, 512]⟩
abbrev S8x256 : Shape := ⟨2, ![8, 256]⟩
abbrev S1x2x1x512x512 : Shape := ⟨5, ![1, 2, 1, 512, 512]⟩
abbrev S1x1x512x512 : Shape := ⟨4, ![1, 1, 512, 512]⟩
abbrev S8x128 : Shape := ⟨2, ![8, 128]⟩
abbrev S1x1x1x512x512 : Shape := ⟨5, ![1, 1, 1, 512, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S2x2x32x512x512, .f32⟩
  | .hbm, ⟨1, _⟩ => ⟨S2x32x512x512, .i32⟩
  | .hbm, ⟨2, _⟩ => ⟨S8x256, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x2x1x512x512, .f32⟩
  | .local _ .vmem, ⟨1, _⟩ => ⟨S1x2x1x512x512, .f32⟩
  | .local _ .vmem, ⟨2, _⟩ => ⟨S1x1x512x512, .i32⟩
  | .local _ .vmem, ⟨3, _⟩ => ⟨S1x1x512x512, .i32⟩
  | .local _ .vmem, ⟨4, _⟩ => ⟨S8x128, .f32⟩
  | .local _ .vmem, ⟨5, _⟩ => ⟨S8x128, .f32⟩
  | _, _ => ⟨S2x2x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S1x2x1x512x512_S1x1x1x512x512_0_0_0_0_0 : ∀ a, (![0, 0, 0, 0, 0] : Fin 5 → Nat) a + S1x1x1x512x512.size a ≤ S1x2x1x512x512.size a
  h_S1x1x1x512x512 : 0 < S1x1x1x512x512.numel
  shapeCasts_S1x1x1x512x512_S512x512 : S1x1x1x512x512.ShapeCasts S512x512
  inb_S1x2x1x512x512_S1x1x1x512x512_0_1_0_0_0 : ∀ a, (![0, 1, 0, 0, 0] : Fin 5 → Nat) a + S1x1x1x512x512.size a ≤ S1x2x1x512x512.size a
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  slices_S8x256_S1x1_0_0 : S8x256.Slices ![0, 0] S1x1
  shapeCasts_S1x1_S_ : S1x1.ShapeCasts S_
  slices_S8x256_S1x1_0_128 : S8x256.Slices ![0, 128] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1x512x512.size a ≤ S2x2x32x512x512.size a
  hwx0_0 : ∀ i : grid0.Coords, EltTy.bits .f32 = 32 ∨ (Rect.block (s := S2x2x32x512x512) S1x2x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S2x32x512x512.size a
  hwx0_1 : ∀ i : grid0.Coords, EltTy.bits .i32 = 32 ∨ (Rect.block (s := S2x32x512x512) S1x1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x256.size a
  hwx0_2 : ∀ i : grid0.Coords, EltTy.bits .f32 = 32 ∨ (Rect.block (s := S8x256) S8x128.size (cc0_transform_2 i) (hinb0_2 i)).WholeWords (EltTy.packing .f32)

variable [Facts₀]

abbrev win0_0 : Pipeline.Window sig grid0 :=
  Pipeline.Window.ofSpec (Memref.whole main_arg0) S1x2x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2x32x512x512 : Shape := ⟨5, ![2, 2, 32, 512, 512]⟩
abbrev S2x32x512x512 : Shape := ⟨4, ![2, 32, 512, 512]⟩
abbrev S_ : Shape := ⟨0, ![]⟩
abbrev S2x32x512x512x1 : Shape := ⟨5, ![2, 32, 512, 512, 1]⟩
abbrev S1x1x1x1x2 : Shape := ⟨5, ![1, 1, 1, 1, 2]⟩
abbrev S2x32x512x512x2 : Shape := ⟨5, ![2, 32, 512, 512, 2]⟩
abbrev S32 : Shape := ⟨1, ![32]⟩

abbrev nBuf : Space → Nat
  | .hbm => 35
  | .vmem => 0
  | .smem => 0
  | _ => 0

abbrev bufTy : (tb : Table) → Fin (tcTables nBuf tb) → BufTy
  | .hbm, ⟨0, _⟩ => ⟨S2x2x32x512x512, .f32⟩
  | .hbm, ⟨1, _⟩ => ⟨S2x32x512x512, .i32⟩
  | .hbm, ⟨2, _⟩ => ⟨S_, .i32⟩
  | .hbm, ⟨3, _⟩ => ⟨S2x32x512x512, .i32⟩
  | .hbm, ⟨4, _⟩ => ⟨S2x32x512x512, .i1⟩
  | .hbm, ⟨5, _⟩ => ⟨S_, .i32⟩
  | .hbm, ⟨6, _⟩ => ⟨S_, .i32⟩
  | .hbm, ⟨7, _⟩ => ⟨S2x32x512x512, .i32⟩
  | .hbm, ⟨8, _⟩ => ⟨S2x32x512x512, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S2x32x512x512, .i32⟩
  | .hbm, ⟨13, _⟩ => ⟨S2x32x512x512, .i32⟩
  | .hbm, ⟨14, _⟩ => ⟨S_, .i32⟩
  | .hbm, ⟨15, _⟩ => ⟨S2x32x512x512, .i32⟩
  | .hbm, ⟨16, _⟩ => ⟨S2x32x512x512, .i32⟩
  | .hbm, ⟨17, _⟩ => ⟨S2x32x512x512x1, .i32⟩
  | .hbm, ⟨18, _⟩ => ⟨S1x1x1x1x2, .i32⟩
  | .hbm, ⟨19, _⟩ => ⟨S2x32x512x512x2, .i32⟩
  | .hbm, ⟨20, _⟩ => ⟨S2x32x512x512x2, .i32⟩
  | .hbm, ⟨21, _⟩ => ⟨S2x32x512x512x2, .i1⟩
  | .hbm, ⟨22, _⟩ => ⟨S2x32x512x512x2, .f32⟩
  | .hbm, ⟨23, _⟩ => ⟨S2x2x32x512x512, .f32⟩
  | .hbm, ⟨24, _⟩ => ⟨S2x2x32x512x512, .f32⟩
  | .hbm, ⟨25, _⟩ => ⟨S2x2x32x512x512, .f32⟩
  | .hbm, ⟨26, _⟩ => ⟨S_, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S2x2x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_c_1 : Ref sig .tc := ⟨.hbm, 9, rfl⟩
abbrev main_c_2 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v3 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_3 : Ref sig .tc := ⟨.hbm, 28, rfl⟩
abbrev main_v9 : Ref sig .tc := ⟨.hbm, 29, rfl⟩
abbrev main_v10 : Ref sig .tc := ⟨.hbm, 30, rfl⟩
abbrev main_cst_4 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩

abbrev nD : Nat := 1
abbrev τ : Topo := Topo.v7x

variable {F : FTy → Type} [FloatOps F]

class Facts₀ : Prop where
  bcast_S_S2x32x512x512 : S_.BroadcastsInDim S2x32x512x512 (![] : Fin 0 → Fin S2x32x512x512.rank)
  bcast_S2x32x512x512_S2x32x512x512x1_0_1_2_3 : S2x32x512x512.BroadcastsInDim S2x32x512x512x1 (![0, 1, 2, 3] : Fin 4 → Fin S2x32x512x512x1.rank)
  bcast_S2x32x512x512x1_S2x32x512x512x2_0_1_2_3_4 : S2x32x512x512x1.BroadcastsInDim S2x32x512x512x2 (![0, 1, 2, 3, 4] : Fin 5 → Fin S2x32x512x512x2.rank)
  bcast_S1x1x1x1x2_S2x32x512x512x2_0_1_2_3_4 : S1x1x1x1x2.BroadcastsInDim S2x32x512x512x2 (![0, 1, 2, 3, 4] : Fin 5 → Fin S2x32x512x512x2.rank)
  transposes_S2x32x512x512x2_S2x2x32x512x512_0_4_1_2_3 : S2x32x512x512x2.Transposes [0, 4, 1, 2, 3] S2x2x32x512x512
  reducesTo_S2x2x32x512x512_S32_d0_1_3_4 : S2x2x32x512x512.ReducesTo [0, 1, 3, 4] S32
  h_S_ : 0 < S_.numel
  bcast_S_S32 : S_.BroadcastsInDim S32 (![] : Fin 0 → Fin S32.rank)
  reducesTo_S32_S_d0 : S32.ReducesTo [0] S_

variable [Facts₀]

class Facts : Prop extends Facts₀ where

variable [Facts]
-- ==== Proof.PointBody.lean ====
/-
  What one grid point leaves in the output block.

  The kernel body loads the two channel planes of the probabilities block (a [1, 2, 1, 512, 512] block: channel 0 and
  channel 1, each a [1, 1, 1, 512, 512] plane) and the label plane, forms the two planes of squared differences
  against the one-hot labels, sums each plane to a single number, adds the two numbers, and adds the result into
  entry (0, 0) of the [8, 128] output block (zero into every other entry).  At the first point of a run over the
  second grid axis the block is first reset to zero; at every later point it holds what the point before left.

  Both control cases therefore leave the SAME function `pointOut` of the loaded blocks and of the block contents
  `xo` the addition starts from: the zero block in the resetting case, the carried contents otherwise.
-/
import proofs.«143228_j979252543807_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem zeros2 : (![0, 0] : Fin 2 → Nat) = fun _ => 0 := funext fun a => by fin_cases a <;> rfl

/-- Channel plane 0 of a probabilities block. -/
abbrev plane0 (x0 : Vec F S1x2x1x512x512 .f32) : Vec F S1x1x1x512x512 .f32 :=
  View.ld x0 (Rect.unit ![0, 0, 0, 0, 0] ![1, 1, 1, 512, 512] Gen.inb_S1x2x1x512x512_S1x1x1x512x512_0_0_0_0_0)

/-- Channel plane 1 of a probabilities block. -/
abbrev plane1 (x0 : Vec F S1x2x1x512x512 .f32) : Vec F S1x1x1x512x512 .f32 :=
  View.ld x0 (Rect.unit ![0, 1, 0, 0, 0] ![1, 1, 1, 512, 512] Gen.inb_S1x2x1x512x512_S1x1x1x512x512_0_1_0_0_0)

/-- The label plane, loaded whole. -/
abbrev labels (x1 : Vec F S1x1x512x512 .i32) : Vec F S1x1x512x512 .i32 :=
  View.ld x1 (Rect.unit ![0, 0, 0, 0] ![1, 1, 512, 512] Gen.inb_S1x1x512x512_S1x1x512x512_0_0_0_0)

/-- What a grid point leaves in the output block that held `xo`: `xo` plus the point's tile (the point's sum of squared
    differences at entry (0, 0), zero elsewhere). -/
def pointOut (x0 : Vec F S1x2x1x512x512 .f32) (x1 : Vec F S1x1x512x512 .i32) (xo : Vec F S8x128 .f32) : Vec F S8x128 .f32 :=
  k0_pay1 (k0_pay4 (plane1 x0) (labels x1)) (k0_pay5 (plane0 x0) (labels x1)) xo

/-- A point that does not reset: the one covering store writes `pointOut` over the carried contents. -/
theorem out_B (c : Dev nD) (i : grid0.Coords) (a2 : Memref sig .tc .vmem S1x2x1x512x512 .f32) (h2 : a2.IsWhole)
    (a3 : Memref sig .tc .vmem S1x1x512x512 .i32) (h3 : a3.IsWhole) (a4 : Memref sig .tc .vmem S8x128 .f32) (h4 : a4.IsWhole)
    (hc : ¬cond0_0 i) (x0 : Vec F S1x2x1x512x512 .f32) (x1 : Vec F S1x1x512x512 .i32) (xo : Vec F S8x128 .f32) :
    out0_B_2 c i a2 h2 a3 h3 a4 h4 hc x0 x1 xo = pointOut x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero zeros2]
  simp only [View.readAt_eq_ld, h2.read_unread, h3.read_unread, h4.read_unread, View.ld_unit_zero (S := S8x128) zeros2]
  rfl

/-- A point that resets: the block is stored as zeros, read back, and `pointOut` of the zero block is stored over it. -/
theorem out_A (c : Dev nD) (i : grid0.Coords) (a2 : Memref sig .tc .vmem S1x2x1x512x512 .f32) (h2 : a2.IsWhole)
    (a3 : Memref sig .tc .vmem S1x1x512x512 .i32) (h3 : a3.IsWhole) (a4 : Memref sig .tc .vmem S8x128 .f32) (h4 : a4.IsWhole)
    (hc : cond0_0 i) (x0 : Vec F S1x2x1x512x512 .f32) (x1 : Vec F S1x1x512x512 .i32) :
    out0_A_2 c i a2 h2 a3 h3 a4 h4 hc x0 x1 = pointOut x0 x1 k0_pay2 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) zeros2]
  simp only [View.readCov_unit_zero (S := S8x128) _ zeros2, View.readAt_eq_ld, h2.read_unread, h3.read_unread,
    h4.read_unread, View.ld_unit_zero (S := S8x128) zeros2]
  rfl

end Cert.KernelIdeal.Body

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibColReduce.lean ====
/-
  Column reductions of a matrix, and a matrix summed to one number the way a kernel keeps dimensions.

  A reduction of an `[m, n]` array over its FIRST axis leaves one value per column.  Read at column `q`, the source
  indices that reduce to it are `(k, q)` for `k : Fin m`, so a kernel's column sum is `∑ k, x (k, q)`.

  A kernel that sums a whole `[m, n]` array one axis at a time, keeping the reduced axes as unit axes
  (`[m, n] → [m] → [m, 1] → [1] → [1, 1]`), ends with the double sum `∑ p, ∑ k, x (p, k)` at its one entry.
-/
import proofs.«143228_j979252543807_1_alg».proof.Proof.LibRowReduce

noncomputable section

namespace Idealize.ShloMosaic.ColReduce

open Idealize.ShloMosaic Idealize.ShloMosaic.ValueIdx

/-- The source index over column `q` with coordinate `k` on the reduced first axis is `(k, q)`. -/
theorem lift_col {m n : ℕ} (h : (⟨2, ![m, n]⟩ : Shape).Reduces [0] ⟨1, ![n]⟩) (q : Fin n) (k : Fin m) :
    h.lift (ix1 q) k = ix2 k q := by
  funext c
  apply Fin.ext
  refine (h.lift_val (ix1 q) k c).trans ?_
  match c with
  | ⟨0, _⟩ => rfl
  | ⟨1, _⟩ => rfl

/-- A kernel's column sum at column `q`. -/
theorem multiReduction_add_col {m n : ℕ} {φ : FTy} (x : FVec Ideal ⟨2, ![m, n]⟩ φ) (acc : BitVec φ.bits)
    (h : (⟨2, ![m, n]⟩ : Shape).Reduces [0] ⟨1, ![n]⟩) (hφ : FKind.Formats φ) (hacc : acc = FKind.add.neutral φ hφ)
    (q : Fin n) :
    multiReduction .add [0] ⟨1, ![n]⟩ x acc h hφ hacc (ix1 q) = ∑ k : Fin m, x (ix2 k q) := by
  refine (Ideal.multiReduction_add_single x acc h hφ hacc (ix1 q)).trans ?_
  exact Finset.sum_congr rfl fun k _ => congrArg x (lift_col h q k)

/-- An `[m, n]` array summed over its second axis, kept as a column, summed over its first axis, kept as a `[1, 1]`
    array: its one entry is the sum of every entry of the array, rows outermost. -/
theorem keepdims_total {m n : ℕ} {φ : FTy} (x : FVec Ideal ⟨2, ![m, n]⟩ φ) (acc acc' : BitVec φ.bits)
    (h1 : (⟨2, ![m, n]⟩ : Shape).Reduces [1] ⟨1, ![m]⟩) (hφ : FKind.Formats φ) (hacc : acc = FKind.add.neutral φ hφ)
    (c1 : (⟨1, ![m]⟩ : Shape).ShapeCasts ⟨2, ![m, 1]⟩)
    (h0 : (⟨2, ![m, 1]⟩ : Shape).Reduces [0] ⟨1, ![1]⟩) (hφ' : FKind.Formats φ) (hacc' : acc' = FKind.add.neutral φ hφ')
    (c0 : (⟨1, ![1]⟩ : Shape).ShapeCasts ⟨2, ![1, 1]⟩) :
    shapeCast ⟨2, ![1, 1]⟩
        (multiReduction .add [0] ⟨1, ![1]⟩
          (shapeCast ⟨2, ![m, 1]⟩ (multiReduction .add [1] ⟨1, ![m]⟩ x acc h1 hφ hacc) c1) acc' h0 hφ' hacc') c0
        (ix2 (0 : Fin 1) (0 : Fin 1))
      = ∑ p : Fin m, ∑ k : Fin n, x (ix2 p k) := by
  refine (RowReduce.shapeCast_a_a1_apply _ c0 (0 : Fin 1) (0 : Fin 1)).trans ?_
  refine (multiReduction_add_col _ acc' h0 hφ' hacc' (0 : Fin 1)).trans ?_
  refine Finset.sum_congr rfl fun p _ => ?_
  refine (RowReduce.shapeCast_a_a1_apply _ c1 p (0 : Fin 1)).trans ?_
  exact RowReduce.multiReduction_add_row x acc h1 hφ hacc p

end Idealize.ShloMosaic.ColReduce

end
-- ==== Proof.SqErr.lean ====
/-
  The quantity both programs average: the squared difference between a probability and a one-hot label entry.

  A label `g` (a 32-bit integer) is first cleaned: the ignore value 2 becomes 0, and the result is clamped into
  `[0, 1]` as a signed integer.  The one-hot entry of channel `c` is 1 when the cleaned label equals `c` and 0 otherwise,
  and the squared error of a probability `p` on channel `c` is `(p - onehot) * (p - onehot)` on the extended reals.

  The kernel converts the one-bit comparison by widening it to 32 bits (zero-extended) and reading that as a signed
  integer; the reference reads the one bit as an unsigned integer.  A zero-extended bit is non-negative, so the two
  readings agree.
-/
import Idealize.ShloMosaic.PureOps.Ideal
import Idealize.ShloMosaic.Lib.ValueIdx

noncomputable section

namespace Cert.MeanSq

open Idealize.ShloMosaic Idealize.ShloMosaic.ValueIdx

/-- A label with the ignore value 2 sent to 0, then clamped into `[0, 1]` (signed). -/
def clip01 (g : BitVec 32) : BitVec 32 :=
  IntOp.minsi 1#32 (IntOp.maxsi 0#32 (Scalar.select (IntOp.cmpi .eq g 2#32) 0#32 g))

/-- A one-bit comparison widened to 32 bits and read signed is the bit read unsigned. -/
theorem widened_bit (b : BitVec 1) : (((b.setWidth 32).toInt : ℝ) : EReal) = ((b.toNat : ℝ) : EReal) := by
  have h : (b.setWidth 32).toInt = (b.toNat : ℤ) := by
    rcases BitVec.eq_zero_or_eq_one b with h | h <;> subst h <;> decide
  rw [h, Int.cast_natCast]

/-- The one-hot entry of channel word `c` for the label `g`: 1 if the cleaned label is `c`, else 0. -/
def onehot (c : BitVec 32) (g : BitVec 32) : EReal := (((IntOp.cmpi .eq (clip01 g) c).toNat : ℝ) : EReal)

/-- The squared error of probability `p` against the one-hot entry of channel word `c` for label `g`. -/
def sqErr (c : BitVec 32) (p : EReal) (g : BitVec 32) : EReal := (p - onehot c g) * (p - onehot c g)

/-- The squared-error array of a probabilities array `P` of shape [2, 2, 32, 512, 512] (batch, channel, slice, row,
    column) and a label array `M` of shape [2, 32, 512, 512] (batch, slice, row, column). -/
def sqArr (P : (⟨5, ![2, 2, 32, 512, 512]⟩ : Shape).Idx → EReal) (M : (⟨4, ![2, 32, 512, 512]⟩ : Shape).Idx → BitVec 32)
    (i : (⟨5, ![2, 2, 32, 512, 512]⟩ : Shape).Idx) : EReal :=
  sqErr (BitVec.ofNat 32 (i 1).val) (P i) (M (ix4 (i 0) (i 2) (i 3) (i 4)))

/-- The sum of the squared errors of batch `b` and slice `d`: both channels, every row and column. -/
def slab (P : (⟨5, ![2, 2, 32, 512, 512]⟩ : Shape).Idx → EReal) (M : (⟨4, ![2, 32, 512, 512]⟩ : Shape).Idx → BitVec 32)
    (b : Fin 2) (d : Fin 32) : EReal :=
  ∑ cc : Fin 2, ∑ h : Fin 512, ∑ w : Fin 512, sqArr P M (ix5 b cc d h w)

/-- Grid point `n` of the 2 × 32 grid (second axis fastest) works on batch `n / 32` … -/
def batchOf (n : ℕ) (h : n < 64) : Fin 2 := ⟨n / 32, by omega⟩
/-- … and slice `n % 32`. -/
def sliceOf (n : ℕ) : Fin 32 := ⟨n % 32, Nat.mod_lt _ (by decide)⟩

/-- What grid point `n` adds to its batch's running sum (nothing past the grid). -/
def ptSum (P : (⟨5, ![2, 2, 32, 512, 512]⟩ : Shape).Idx → EReal) (M : (⟨4, ![2, 32, 512, 512]⟩ : Shape).Idx → BitVec 32)
    (n : ℕ) : EReal :=
  if h : n < 64 then slab P M (batchOf n h) (sliceOf n) else 0

/-- A slab is the channel-0 plane's sum plus the channel-1 plane's sum. -/
theorem slab_eq (P : (⟨5, ![2, 2, 32, 512, 512]⟩ : Shape).Idx → EReal) (M : (⟨4, ![2, 32, 512, 512]⟩ : Shape).Idx → BitVec 32)
    (b : Fin 2) (d : Fin 32) :
    slab P M b d
      = (∑ h : Fin 512, ∑ w : Fin 512, sqErr 0#32 (P (ix5 b (0 : Fin 2) d h w)) (M (ix4 b d h w)))
        + (∑ h : Fin 512, ∑ w : Fin 512, sqErr 1#32 (P (ix5 b (1 : Fin 2) d h w)) (M (ix4 b d h w))) := by
  unfold slab
  rw [Fin.sum_univ_two]
  rfl

end Cert.MeanSq

end
-- ==== Proof.PointSum.lean ====
/-
  The entry (0, 0) of what a grid point leaves in the output block, on the extended reals.

  `pointOut x0 x1 xo` at (0, 0) is `xo (0, 0)` plus the point's sum: the sum over the 512 × 512 plane of the squared
  errors of channel 0, plus the same for channel 1.  (The tile the body adds is the point's sum where the row and the
  column iotas are both zero, which is exactly entry (0, 0).)
-/
import proofs.«143228_j979252543807_1_alg».proof.Proof.PointBody
import proofs.«143228_j979252543807_1_alg».proof.Proof.LibColReduce
import proofs.«143228_j979252543807_1_alg».proof.Proof.SqErr
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem

namespace Cert.KernelIdeal.PointSum

open Cert.KernelIdeal Cert.KernelIdeal.Gen Cert.KernelIdeal.Body Cert.MeanSq Idealize.ShloMosaic.ValueIdx

/-- The cleaned label plane at (h, w) is the cleaned label at (0, 0, h, w) of the loaded label block. -/
theorem cleaned_apply (v7 : Vec Ideal S1x1x512x512 .i32) (h w : Fin 512) :
    k0_pay3 (F := Ideal) v7 (ix2 h w) = clip01 (v7 (ix4 (0 : Fin 1) (0 : Fin 1) h w)) := by
  unfold k0_pay3
  exact congrArg clip01 (shapeCast_apply v7 shapeCasts_S1x1x512x512_S512x512 (ix2 h w) (ix4 (0 : Fin 1) (0 : Fin 1) h w) (by
    rw [Shape.rowMajor_val_four, Shape.rowMajor_val_two]
    show (((0 : ℕ) * 1 + 0) * 512 + h.val) * 512 + w.val = h.val * 512 + w.val
    omega))

/-- A probabilities plane viewed as a 512 × 512 matrix reads the plane at (0, 0, 0, h, w). -/
theorem plane_apply (v : Vec Ideal S1x1x1x512x512 .f32) (h w : Fin 512) :
    (shapeCast S512x512 v shapeCasts_S1x1x1x512x512_S512x512 : FVec Ideal S512x512 .f32) (ix2 h w)
      = v (ix5 (0 : Fin 1) (0 : Fin 1) (0 : Fin 1) h w) :=
  shapeCast_apply v shapeCasts_S1x1x1x512x512_S512x512 (ix2 h w) (ix5 (0 : Fin 1) (0 : Fin 1) (0 : Fin 1) h w) (by
    rw [Shape.rowMajor_val_five, Shape.rowMajor_val_two]
    show ((((0 : ℕ) * 1 + 0) * 1 + 0) * 512 + h.val) * 512 + w.val = h.val * 512 + w.val
    omega)

/-- The plane of squared errors of the channel whose word is `cw`, as the body forms it from a loaded probabilities
    plane `v` and the loaded label block `v7`. -/
def sqPlane (cw : BitVec 32) (v : Vec Ideal S1x1x1x512x512 .f32) (v7 : Vec Ideal S1x1x512x512 .i32) : FVec Ideal S512x512 .f32 :=
  mulf
    (subf (shapeCast S512x512 v shapeCasts_S1x1x1x512x512_S512x512 : FVec Ideal S512x512 .f32)
      (sitofp .f32 (extui 32 (cmpi .eq (k0_pay3 (F := Ideal) v7) (broadcast S512x512 cw)) natLt_1_32)))
    (subf (shapeCast S512x512 v shapeCasts_S1x1x1x512x512_S512x512 : FVec Ideal S512x512 .f32)
      (sitofp .f32 (extui 32 (cmpi .eq (k0_pay3 (F := Ideal) v7) (broadcast S512x512 cw)) natLt_1_32)))

/-- Its entry (h, w) is the squared error of the probability at (0, 0, 0, h, w) against the label at (0, 0, h, w). -/
theorem sqPlane_apply (cw : BitVec 32) (v : Vec Ideal S1x1x1x512x512 .f32) (v7 : Vec Ideal S1x1x512x512 .i32) (h w : Fin 512) :
    sqPlane cw v v7 (ix2 h w)
      = sqErr cw (v (ix5 (0 : Fin 1) (0 : Fin 1) (0 : Fin 1) h w)) (v7 (ix4 (0 : Fin 1) (0 : Fin 1) h w)) := by
  unfold sqPlane
  show ((shapeCast S512x512 v shapeCasts_S1x1x1x512x512_S512x512 : FVec Ideal S512x512 .f32) (ix2 h w)
        - (((((IntOp.cmpi .eq (k0_pay3 (F := Ideal) v7 (ix2 h w)) cw).setWidth 32).toInt : ℝ)) : EReal))
      * ((shapeCast S512x512 v shapeCasts_S1x1x1x512x512_S512x512 : FVec Ideal S512x512 .f32) (ix2 h w)
        - (((((IntOp.cmpi .eq (k0_pay3 (F := Ideal) v7 (ix2 h w)) cw).setWidth 32).toInt : ℝ)) : EReal)) = _
  rw [plane_apply, cleaned_apply, widened_bit]
  rfl

/-- The channel-1 plane of squared errors is the body's `%28`. -/
theorem pay4_eq (v5 : Vec Ideal S1x1x1x512x512 .f32) (v7 : Vec Ideal S1x1x512x512 .i32) :
    k0_pay4 (F := Ideal) v5 v7 = sqPlane 1#32 v5 v7 := rfl

/-- The body's `%32`: the channel-0 plane of squared errors summed to one number. -/
theorem pay5_origin (v3 : Vec Ideal S1x1x1x512x512 .f32) (v7 : Vec Ideal S1x1x512x512 .i32) :
    k0_pay5 (F := Ideal) v3 v7 (ix2 (0 : Fin 1) (0 : Fin 1)) = ∑ h : Fin 512, ∑ w : Fin 512, sqPlane 0#32 v3 v7 (ix2 h w) := by
  unfold k0_pay5
  exact ColReduce.keepdims_total (sqPlane 0#32 v3 v7) 0x00000000#32 0x00000000#32 reduces_S512x512_S512 (.inl rfl) rfl
    shapeCasts_S512_S512x1 reduces_S512x1_S1 (.inl rfl) rfl shapeCasts_S1_S1x1

/-- The body's stored value `%51` at (0, 0): the block read back, plus the first channel's number plus the second
    plane summed to one number. -/
theorem pay1_origin (v28 : FVec Ideal S512x512 .f32) (v32 : FVec Ideal S1x1 .f32) (v49 : Vec Ideal S8x128 .f32) :
    k0_pay1 (F := Ideal) v28 v32 v49 (ix2 (0 : Fin 8) (0 : Fin 128))
      = v49 (ix2 (0 : Fin 8) (0 : Fin 128))
        + (v32 (ix2 (0 : Fin 1) (0 : Fin 1)) + ∑ h : Fin 512, ∑ w : Fin 512, v28 (ix2 h w)) := by
  unfold k0_pay1
  have hi0 : iota .tc S8x128 32 [0] iota_S8x128_d0_w32 (ix2 (0 : Fin 8) (0 : Fin 128)) = 0#32 :=
    iota_single_apply .tc S8x128 32 0 iota_S8x128_d0_w32 _
  have hi1 : iota .tc S8x128 32 [1] iota_S8x128_d1_w32 (ix2 (0 : Fin 8) (0 : Fin 128)) = 0#32 :=
    iota_single_apply .tc S8x128 32 1 iota_S8x128_d1_w32 _
  have htot := ColReduce.keepdims_total v28 0x00000000#32 0x00000000#32 reduces_S512x512_S512 (.inl rfl) rfl
    shapeCasts_S512_S512x1 reduces_S512x1_S1 (.inl rfl) rfl shapeCasts_S1_S1x1
  have hm : IntOp.andi (IntOp.cmpi .eq (0#32 : BitVec 32) 0#32) (IntOp.cmpi .eq (0#32 : BitVec 32) 0#32) = 1#1 := by decide
  refine congrArg₂ (· + ·) (congrFun (shapeCast_self v49 shapeCasts_S8x128_S8x128) _) ?_
  show Scalar.select
      (IntOp.andi (IntOp.cmpi .eq (iota .tc S8x128 32 [0] iota_S8x128_d0_w32 (ix2 (0 : Fin 8) (0 : Fin 128))) 0#32)
        (IntOp.cmpi .eq (iota .tc S8x128 32 [1] iota_S8x128_d1_w32 (ix2 (0 : Fin 8) (0 : Fin 128))) 0#32))
      (broadcastTo S8x128 _ broadcasts_S1x1_S8x128 (ix2 (0 : Fin 8) (0 : Fin 128))) _ = _
  rw [hi0, hi1, hm, select_one]
  refine (broadcastTo_apply _ broadcasts_S1x1_S8x128 (ix2 (0 : Fin 8) (0 : Fin 128)) (ix2 (0 : Fin 1) (0 : Fin 1)) (fun a => ?_)).trans ?_
  · match a with
    | ⟨0, _⟩ => show (0 : ℕ) = if (1 : ℕ) = 1 then 0 else _; rw [if_pos rfl]
    | ⟨1, _⟩ => show (0 : ℕ) = if (1 : ℕ) = 1 then 0 else _; rw [if_pos rfl]
  rw [shapeCast_self]
  exact congrArg (fun z => v32 (ix2 (0 : Fin 1) (0 : Fin 1)) + z) htot

theorem zeros4 : (![0, 0, 0, 0] : Fin 4 → Nat) = fun _ => 0 := funext fun a => by fin_cases a <;> rfl

/-- Channel plane 0 of a probabilities block reads the block at channel 0. -/
theorem plane0_apply (x0 : Vec Ideal S1x2x1x512x512 .f32) (h w : Fin 512) :
    plane0 x0 (ix5 (0 : Fin 1) (0 : Fin 1) (0 : Fin 1) h w) = x0 (ix5 (0 : Fin 1) (0 : Fin 2) (0 : Fin 1) h w) := by
  show x0 ((Rect.unit (s := S1x2x1x512x512) ![0, 0, 0, 0, 0] ![1, 1, 1, 512, 512]
    Gen.inb_S1x2x1x512x512_S1x1x1x512x512_0_0_0_0_0).emb (ix5 (0 : Fin 1) (0 : Fin 1) (0 : Fin 1) h w)) = _
  refine congrArg x0 (funext fun a => Fin.ext ?_)
  rw [Rect.emb_apply]
  match a with
  | ⟨0, _⟩ => rfl
  | ⟨1, _⟩ => rfl
  | ⟨2, _⟩ => rfl
  | ⟨3, _⟩ => show 0 + 1 * h.val = h.val; omega
  | ⟨4, _⟩ => show 0 + 1 * w.val = w.val; omega

/-- Channel plane 1 of a probabilities block reads the block at channel 1. -/
theorem plane1_apply (x0 : Vec Ideal S1x2x1x512x512 .f32) (h w : Fin 512) :
    plane1 x0 (ix5 (0 : Fin 1) (0 : Fin 1) (0 : Fin 1) h w) = x0 (ix5 (0 : Fin 1) (1 : Fin 2) (0 : Fin 1) h w) := by
  show x0 ((Rect.unit (s := S1x2x1x512x512) ![0, 1, 0, 0, 0] ![1, 1, 1, 512, 512]
    Gen.inb_S1x2x1x512x512_S1x1x1x512x512_0_1_0_0_0).emb (ix5 (0 : Fin 1) (0 : Fin 1) (0 : Fin 1) h w)) = _
  refine congrArg x0 (funext fun a => Fin.ext ?_)
  rw [Rect.emb_apply]
  match a with
  | ⟨0, _⟩ => rfl
  | ⟨1, _⟩ => rfl
  | ⟨2, _⟩ => rfl
  | ⟨3, _⟩ => show 0 + 1 * h.val = h.val; omega
  | ⟨4, _⟩ => show 0 + 1 * w.val = w.val; omega

/-- The label plane loaded whole is the label block. -/
theorem labels_eq (x1 : Vec Ideal S1x1x512x512 .i32) : labels x1 = x1 :=
  View.ld_unit_zero (S := S1x1x512x512) zeros4 _ x1

/-- ENTRY (0, 0) OF WHAT A POINT LEAVES: the entry it started from, plus the two channel planes' sums of squared
    errors. -/
theorem pointOut_origin (x0 : Vec Ideal S1x2x1x512x512 .f32) (x1 : Vec Ideal S1x1x512x512 .i32) (xo : Vec Ideal S8x128 .f32) :
    pointOut x0 x1 xo (ix2 (0 : Fin 8) (0 : Fin 128))
      = xo (ix2 (0 : Fin 8) (0 : Fin 128))
        + ((∑ h : Fin 512, ∑ w : Fin 512,
              sqErr 0#32 (x0 (ix5 (0 : Fin 1) (0 : Fin 2) (0 : Fin 1) h w)) (x1 (ix4 (0 : Fin 1) (0 : Fin 1) h w)))
          + (∑ h : Fin 512, ∑ w : Fin 512,
              sqErr 1#32 (x0 (ix5 (0 : Fin 1) (1 : Fin 2) (0 : Fin 1) h w)) (x1 (ix4 (0 : Fin 1) (0 : Fin 1) h w)))) := by
  unfold pointOut
  rw [pay1_origin, pay5_origin, pay4_eq, labels_eq]
  simp only [sqPlane_apply]
  refine congrArg (fun z => xo (ix2 (0 : Fin 8) (0 : Fin 128)) + z) (congrArg₂ (· + ·) ?_ ?_)
  · exact Finset.sum_congr rfl fun h _ => Finset.sum_congr rfl fun w _ =>
      congrArg (fun p => sqErr 0#32 p (x1 (ix4 (0 : Fin 1) (0 : Fin 1) h w))) (plane0_apply x0 h w)
  · exact Finset.sum_congr rfl fun h _ => Finset.sum_congr rfl fun w _ =>
      congrArg (fun p => sqErr 1#32 p (x1 (ix4 (0 : Fin 1) (0 : Fin 1) h w))) (plane1_apply x0 h w)

end Cert.KernelIdeal.PointSum

end
-- ==== Proof.GridSum.lean ====
/-
  The output block along the grid, at entry (0, 0).

  Grid point `t` of the 2 × 32 grid (second axis fastest) stages the probabilities of batch `t / 32`, slice `t % 32`
  (both channels) and the labels of the same batch and slice.  So what the point adds to entry (0, 0) of the output
  block is the sum of the squared errors over that batch and slice (`ptSum`).  The block is reset at the first point of
  each batch (`t % 32 = 0`) and carried from the point before otherwise, so after point `32 q + j` its entry (0, 0) is
  the sum of the points `32 q … 32 q + j`.
-/
import proofs.«143228_j979252543807_1_alg».proof.Proof.PointSum

noncomputable section

open Idealize.ShloMosaic Idealize.ShloMosaic.TcCoe Idealize.SL.Sem
open Idealize.ShloMosaic.Pipeline (Dat)

namespace Cert.KernelIdeal.GridSum

open Cert.KernelIdeal Cert.KernelIdeal.Gen Cert.KernelIdeal.Body Cert.KernelIdeal.PointSum Cert.MeanSq
open Idealize.ShloMosaic.ValueIdx

variable (m : (ℓ : Loc nD τ sig) → Buf (Elt Ideal) ℓ)

/-- The probabilities array on core `c`. -/
abbrev probs (c : Dev nD) : (⟨5, ![2, 2, 32, 512, 512]⟩ : Shape).Idx → EReal := m ((c : Thread nD τ).loc main_arg0)
/-- The label array on core `c`. -/
abbrev labs (c : Dev nD) : (⟨4, ![2, 32, 512, 512]⟩ : Shape).Idx → BitVec 32 := m ((c : Thread nD τ).loc main_arg1)

theorem lt64 (t : Fin cfg0.N) : t.val < 64 := lt_of_lt_of_eq t.isLt (show cfg0.N = 64 from N_0)

/-- The printed index maps over the grid: both input windows sit at batch `t / 32`, slice `t % 32`. -/
theorem idx_facts : ∀ t : Fin cfg0.N,
    win0_0.index t (0 : Fin 5) = t.val / 32 ∧ win0_0.index t (1 : Fin 5) = 0 ∧ win0_0.index t (2 : Fin 5) = t.val % 32
    ∧ win0_0.index t (3 : Fin 5) = 0 ∧ win0_0.index t (4 : Fin 5) = 0
    ∧ win0_1.index t (0 : Fin 4) = t.val / 32 ∧ win0_1.index t (1 : Fin 4) = t.val % 32
    ∧ win0_1.index t (2 : Fin 4) = 0 ∧ win0_1.index t (3 : Fin 4) = 0 :=
  (by decide +kernel : ∀ t : Fin grid0.N, _)

/-- The probabilities block at point `t`, channel `cc`, row `h`, column `w`. -/
theorem probs_block (c : Dev nD) (t : Fin cfg0.N) (cc : Fin 2) (h w : Fin 512) :
    (iblk m c 0 t : Vec Ideal S1x2x1x512x512 .f32) (ix5 (0 : Fin 1) cc (0 : Fin 1) h w)
      = probs m c (ix5 (batchOf t.val (lt64 t)) cc (sliceOf t.val) h w) := by
  obtain ⟨e0, e1, e2, e3, e4, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 5) * 1 + 1 * 0 = t.val / 32; omega
  | ⟨1, _⟩ => show win0_0.index t (1 : Fin 5) * 2 + 1 * cc.val = cc.val; omega
  | ⟨2, _⟩ => show win0_0.index t (2 : Fin 5) * 1 + 1 * 0 = t.val % 32; omega
  | ⟨3, _⟩ => show win0_0.index t (3 : Fin 5) * 512 + 1 * h.val = h.val; omega
  | ⟨4, _⟩ => show win0_0.index t (4 : Fin 5) * 512 + 1 * w.val = w.val; omega

/-- The label block at point `t`, row `h`, column `w`. -/
theorem labs_block (c : Dev nD) (t : Fin cfg0.N) (h w : Fin 512) :
    (iblk m c 1 t : Vec Ideal S1x1x512x512 .i32) (ix4 (0 : Fin 1) (0 : Fin 1) h w)
      = labs m c (ix4 (batchOf t.val (lt64 t)) (sliceOf t.val) h w) := by
  obtain ⟨-, -, -, -, -, e0, e1, e2, e3⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 4) * 1 + 1 * 0 = t.val / 32; omega
  | ⟨1, _⟩ => show win0_1.index t (1 : Fin 4) * 1 + 1 * 0 = t.val % 32; omega
  | ⟨2, _⟩ => show win0_1.index t (2 : Fin 4) * 512 + 1 * h.val = h.val; omega
  | ⟨3, _⟩ => show win0_1.index t (3 : Fin 4) * 512 + 1 * w.val = w.val; omega

/-- WHAT POINT `t` ADDS at entry (0, 0): the slab of its batch and slice. -/
theorem point_origin (c : Dev nD) (t : Fin cfg0.N) (xo : Vec Ideal S8x128 .f32) :
    pointOut (iblk m c 0 t) (iblk m c 1 t) xo (ix2 (0 : Fin 8) (0 : Fin 128))
      = xo (ix2 (0 : Fin 8) (0 : Fin 128)) + ptSum (probs m c) (labs m c) t.val := by
  refine (pointOut_origin (iblk m c 0 t) (iblk m c 1 t) xo).trans ?_
  refine congrArg (fun z => xo (ix2 (0 : Fin 8) (0 : Fin 128)) + z) ?_
  unfold ptSum
  rw [dif_pos (lt64 t), slab_eq]
  refine congrArg₂ (· + ·) ?_ ?_
  · exact Finset.sum_congr rfl fun h _ => Finset.sum_congr rfl fun w _ =>
      congrArg₂ (sqErr 0#32) (probs_block m c t 0 h w) (labs_block m c t h w)
  · exact Finset.sum_congr rfl fun h _ => Finset.sum_congr rfl fun w _ =>
      congrArg₂ (sqErr 1#32) (probs_block m c t 1 h w) (labs_block m c t h w)

/-- THE RUNNING SUM.  After point `32 q + j` (`j < 32`) entry (0, 0) of the output block is the sum of what the points
    `32 q, …, 32 q + j` add: the first resets the block to zero and adds, every later one adds to what it finds. -/
theorem origin_after (c : Dev nD) (q : ℕ) : ∀ (j : ℕ) (_ : j < 32) (h : 32 * q + j < cfg0.N),
    outsAt0 m c (32 * q + j) h (ix2 (0 : Fin 8) (0 : Fin 128))
      = ∑ s ∈ Finset.range (j + 1), ptSum (probs m c) (labs m c) (32 * q + s)
  | 0, _, h => by
    have h0 : (⟨32 * q + 0, h⟩ : Fin cfg0.N).val % 32 = 0 := by show (32 * q + 0) % 32 = 0; omega
    refine (congrFun (outsAt0_A m c ⟨32 * q + 0, h⟩ h0) _).trans ?_
    rw [out_A]
    refine (point_origin m c ⟨32 * q + 0, h⟩ _).trans ?_
    rw [Finset.sum_range_one]
    show Ideal.ofBits .f32 0x00000000#32 + _ = _
    rw [Ideal.ofBits_zero_f32, zero_add]
  | j + 1, hj, h => by
    have hB : ¬(⟨32 * q + (j + 1), h⟩ : Fin cfg0.N).val % 32 = 0 := by
      show ¬(32 * q + (j + 1)) % 32 = 0; omega
    refine (congrFun (outsAt0_B m c ⟨32 * q + (j + 1), h⟩ hB) _).trans ?_
    rw [out_B]
    refine (point_origin m c ⟨32 * q + (j + 1), h⟩ _).trans ?_
    rw [Finset.sum_range_succ _ (j + 1)]
    refine congrArg₂ (· + ·) ?_ rfl
    exact origin_after c q j (Nat.lt_of_succ_lt hj) _

end Cert.KernelIdeal.GridSum

end
-- ==== Proof.LibIdx5.lean ====
/-
  Sums over a rank-5 index set.

  A rank-5 index is its five coordinates, so the index set is the product of the five coordinate ranges and a sum over
  it is the five-fold sum over the coordinates, first axis outermost.
-/
import Idealize.ShloMosaic.Lib.ValueIdx

noncomputable section

namespace Idealize.ShloMosaic.ValueIdx

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

end Idealize.ShloMosaic.ValueIdx

end
-- ==== Proof.SlabSum.lean ====
/-
  The grid's point sums add up to the sum of every squared error.

  The 64 grid points are the pairs (batch, slice); point `32 q + d` adds the slab of batch `q`, slice `d`.  The sum
  over a rank-5 index set is the five-fold sum over the coordinates, and the slabs (channel, row, column summed)
  taken over every batch and slice are that five-fold sum with the channel and slice sums exchanged.
-/
import proofs.«143228_j979252543807_1_alg».proof.Proof.SqErr
import proofs.«143228_j979252543807_1_alg».proof.Proof.LibIdx5

noncomputable section

namespace Cert.MeanSq

open Idealize.ShloMosaic Idealize.ShloMosaic.ValueIdx

/-- The 32 points of batch `q`'s run add the 32 slabs of that batch. -/
theorem run_sum (P : (⟨5, ![2, 2, 32, 512, 512]⟩ : Shape).Idx → EReal) (M : (⟨4, ![2, 32, 512, 512]⟩ : Shape).Idx → BitVec 32)
    (q : Fin 2) : ∑ s ∈ Finset.range 32, ptSum P M (32 * q.val + s) = ∑ d : Fin 32, slab P M q d := by
  rw [Finset.sum_range]
  refine Finset.sum_congr rfl fun d _ => ?_
  have hq := q.isLt
  have hd := d.isLt
  unfold ptSum
  rw [dif_pos (by omega)]
  congr 1
  · apply Fin.ext; show (32 * q.val + d.val) / 32 = q.val; omega
  · apply Fin.ext; show (32 * q.val + d.val) % 32 = d.val; omega

/-- THE TWO RUNS TOGETHER are the sum of the squared errors over the whole array. -/
theorem total_eq (P : (⟨5, ![2, 2, 32, 512, 512]⟩ : Shape).Idx → EReal) (M : (⟨4, ![2, 32, 512, 512]⟩ : Shape).Idx → BitVec 32) :
    (∑ s ∈ Finset.range 32, ptSum P M (32 * 0 + s)) + (∑ s ∈ Finset.range 32, ptSum P M (32 * 1 + s))
      = ∑ i, sqArr P M i := by
  have h0 : ∑ s ∈ Finset.range 32, ptSum P M (32 * 0 + s) = ∑ d : Fin 32, slab P M 0 d := run_sum P M 0
  have h1 : ∑ s ∈ Finset.range 32, ptSum P M (32 * 1 + s) = ∑ d : Fin 32, slab P M 1 d := run_sum P M 1
  rw [h0, h1, sum_idx5, Fin.sum_univ_two]
  unfold slab
  congr 1 <;> exact Finset.sum_comm

end Cert.MeanSq

end
-- ==== Proof.KernelResult.lean ====
/-
  The kernel's result on the extended reals.

  The output array is [8, 256]: two [8, 128] blocks side by side, block `b` for batch `b`.  The block of batch `b` is
  written back once, after the last point of that batch's run (points 31 and 63), so the two write-backs do not overlap
  and the array ends holding, under each block, what the body left at that point.  The host then reads entries (0, 0)
  and (0, 128) — entry (0, 0) of each block —, adds them and divides by 2^25.  With the running sums of the two runs
  this is the sum of all 64 points' sums divided by 2^25.
-/
import proofs.«143228_j979252543807_1_alg».proof.Proof.GridSum
import proofs.«143228_j979252543807_1_alg».proof.Proof.SlabSum
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.GridSum Cert.MeanSq Idealize.ShloMosaic.StableHlo
open Idealize.ShloMosaic.ValueIdx

variable (m : (ℓ : Loc nD τ sig) → Buf (Elt Ideal) ℓ) (ρ : Dev nD → PrngReg)

/-- The last point of batch 0's run. -/
abbrev t31 : Fin cfg0.N := ⟨31, lt_of_lt_of_eq (by decide : (31 : ℕ) < 64) (show (64 : ℕ) = cfg0.N from N_0.symm)⟩
/-- The last point of batch 1's run. -/
abbrev t63 : Fin cfg0.N := ⟨63, lt_of_lt_of_eq (by decide : (63 : ℕ) < 64) (show (64 : ℕ) = cfg0.N from N_0.symm)⟩

/-- Two different points that write the output back write different blocks (decided over the grid). -/
theorem flush_idx_ne : ∀ t t' : Fin cfg0.N, (cfg0.win 2).flush t = true → (cfg0.win 2).flush t' = true → t ≠ t' →
    win0_2.index t ≠ win0_2.index t' :=
  (by decide +kernel : ∀ t t' : Fin grid0.N, win0_2.flush t = true → win0_2.flush t' = true → t ≠ t' →
    win0_2.index t ≠ win0_2.index t')

/-- So their blocks share no array index. -/
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk (flush_idx_ne t t' hf hf' hne)

/-- What point `t` writes back is what the body left in the staging buffer there. -/
theorem flushed2 (c : Dev nD) (t : Fin cfg0.N) :
    (dats m 0 c).flushed 2 t = (cfg0.win 2).cut (grid0.coords t) (outsAt0 m c t.val t.isLt) := by
  show (cfg0.win 2).cut (grid0.coords t) ((dats m 0 c).after 2 t) = _
  rw [after0_2]

/-- An entry of the final array under the block of a point that writes back is that entry of what the body left. -/
theorem arr_under (c : Dev nD) (t : Fin cfg0.N) (hf : (cfg0.win 2).flush t = true) (y : S8x128.Idx) :
    (dats m 0 c).arrAt 2 cfg0.N (((cfg0.win 2).blk t).view.emb y) = outsAt0 m c t.val t.isLt y := by
  have h := congrFun ((dats m 0 c).read_blk_arrAt_eq_flushed 2 disjoint2 cfg0.N t t.isLt hf) y
  rw [View.read_apply, flushed2] at h
  exact h

theorem flush31 : (cfg0.win 2).flush t31 = true := (flush0_2 t31).mpr rfl
theorem flush63 : (cfg0.win 2).flush t63 = true := (flush0_2 t63).mpr rfl

/-- Entry (0, 0) of batch 0's block is entry (0, 0) of the array. -/
theorem emb31 : ((cfg0.win 2).blk t31).view.emb (ix2 (0 : Fin 8) (0 : Fin 128)) = ix2 (0 : Fin 8) (0 : Fin 256) := by
  funext a
  apply Fin.ext
  match a with
  | ⟨0, _⟩ =>
    show win0_2.index t31 (0 : Fin 2) * 8 + 1 * 0 = 0
    rw [show win0_2.index t31 (0 : Fin 2) = 0 from by decide +kernel]
  | ⟨1, _⟩ =>
    show win0_2.index t31 (1 : Fin 2) * 128 + 1 * 0 = 0
    rw [show win0_2.index t31 (1 : Fin 2) = 0 from by decide +kernel]

/-- Entry (0, 0) of batch 1's block is entry (0, 128) of the array. -/
theorem emb63 : ((cfg0.win 2).blk t63).view.emb (ix2 (0 : Fin 8) (0 : Fin 128)) = ix2 (0 : Fin 8) (128 : Fin 256) := by
  funext a
  apply Fin.ext
  match a with
  | ⟨0, _⟩ =>
    show win0_2.index t63 (0 : Fin 2) * 8 + 1 * 0 = 0
    rw [show win0_2.index t63 (0 : Fin 2) = 0 from by decide +kernel]
  | ⟨1, _⟩ =>
    show win0_2.index t63 (1 : Fin 2) * 128 + 1 * 0 = 128
    rw [show win0_2.index t63 (1 : Fin 2) = 1 from by decide +kernel]

/-- Entry (0, 0) of the final array: the sum of batch 0's 32 points. -/
theorem arr_0_0 (c : Dev nD) :
    (dats m 0 c).arrAt 2 cfg0.N (ix2 (0 : Fin 8) (0 : Fin 256))
      = ∑ s ∈ Finset.range 32, ptSum (probs m c) (labs m c) (32 * 0 + s) := by
  have h := arr_under m c t31 flush31 (ix2 (0 : Fin 8) (0 : Fin 128))
  rw [emb31] at h
  exact h.trans (origin_after m c 0 31 (by decide) _)

/-- Entry (0, 128) of the final array: the sum of batch 1's 32 points. -/
theorem arr_0_128 (c : Dev nD) :
    (dats m 0 c).arrAt 2 cfg0.N (ix2 (0 : Fin 8) (128 : Fin 256))
      = ∑ s ∈ Finset.range 32, ptSum (probs m c) (labs m c) (32 * 1 + s) := by
  have h := arr_under m c t63 flush63 (ix2 (0 : Fin 8) (0 : Fin 128))
  rw [emb63] at h
  exact h.trans (origin_after m c 1 31 (by decide) _)

/-- The [1, 1] slice at `(0, o)` of an [8, 256] array, reshaped to a scalar, is the array's entry `(0, o)`. -/
theorem picked (A : S8x256.Idx → EReal) (o : ℕ) (ho : o < 256) (hs : S8x256.Slices ![0, o] S1x1) (i : S_.Idx) :
    shapeCast S_ (extractStridedSlice S1x1 ![0, o] A hs) shapeCasts_S1x1_S_ i = A (ix2 (0 : Fin 8) (⟨o, ho⟩ : Fin 256)) := by
  refine (shapeCast_apply _ shapeCasts_S1x1_S_ i (ix2 (0 : Fin 1) (0 : Fin 1)) (by
    rw [Shape.rowMajor_val_two]
    show 0 * 1 + 0 = (Shape.rowMajorPi _ i).val
    rw [Shape.rowMajorPi_zero])).trans ?_
  exact extractStridedSlice_apply ![0, o] A hs (ix2 (0 : Fin 1) (0 : Fin 1)) (ix2 (0 : Fin 8) (⟨o, ho⟩ : Fin 256)) (fun a => by
    match a with
    | ⟨0, _⟩ => rfl
    | ⟨1, _⟩ => show o = o + 0; omega)

/-- THE KERNEL'S RESULT: the sum of every squared error divided by 2^25. -/
theorem result_eq (c : Dev nD) :
    Pipeline.afterTail₀ cfgs (dats m) 0 (V0 m) [hostOps1] c main_v6
      = fun _ => Ideal.div (∑ i, sqArr (probs m c) (labs m c) i) (Ideal.ofBits .f32 0x4C000000#32) := by
  have harr : Pipeline.withArrays (cfgs 0).spec c (V0 m c) (fun w => (dats m 0 c).arrAt w (cfgs 0).N)
      (Proc.devRef .tc main_v0) = (dats m 0 c).arrAt 2 cfg0.N :=
    Pipeline.withArrays_arr spec0 launch0.win.arr_inj c _ _ 2
  obtain ⟨A, hA⟩ : ∃ A : S8x256.Idx → EReal, A = (dats m 0 c).arrAt 2 cfg0.N := ⟨_, rfl⟩
  have h00 : A (ix2 (0 : Fin 8) (0 : Fin 256)) = ∑ s ∈ Finset.range 32, ptSum (probs m c) (labs m c) (32 * 0 + s) := by
    rw [hA]; exact arr_0_0 m c
  have h0128 : A (ix2 (0 : Fin 8) (128 : Fin 256)) = ∑ s ∈ Finset.range 32, ptSum (probs m c) (labs m c) (32 * 1 + s) := by
    rw [hA]; exact arr_0_128 m c
  unfold Pipeline.afterTail₀
  show StableHlo.after hostOps1 _ (Proc.devRef .tc main_v6) = _
  after_results
  rw [harr, ← hA]
  funext i
  show Ideal.div
      (shapeCast S_ (extractStridedSlice S1x1 ![0, 0] A slices_S8x256_S1x1_0_0) shapeCasts_S1x1_S_ i
        + shapeCast S_ (extractStridedSlice S1x1 ![0, 128] A slices_S8x256_S1x1_0_128) shapeCasts_S1x1_S_ i)
      (Ideal.ofBits .f32 0x4C000000#32) = _
  have p0 : shapeCast S_ (extractStridedSlice S1x1 ![0, 0] A slices_S8x256_S1x1_0_0) shapeCasts_S1x1_S_ i
      = ∑ s ∈ Finset.range 32, ptSum (probs m c) (labs m c) (32 * 0 + s) :=
    (picked A 0 (by decide) slices_S8x256_S1x1_0_0 i).trans h00
  have p1 : shapeCast S_ (extractStridedSlice S1x1 ![0, 128] A slices_S8x256_S1x1_0_128) shapeCasts_S1x1_S_ i
      = ∑ s ∈ Finset.range 32, ptSum (probs m c) (labs m c) (32 * 1 + s) :=
    (picked A 128 (by decide) slices_S8x256_S1x1_0_128 i).trans h0128
  rw [p0, p1, total_eq]

/-- The scalar result is neither a staging buffer nor an array of the pipeline. -/
theorem v6_rest : main_v6 ∈ Pipeline.restRefs sig (cfgs 0).spec :=
  Pipeline.mem_restRefs_of main_v6 rfl (by decide)

/-- THE RUN, READ: every weakly fair execution ends with the scalar result at the sum of every squared error divided
    by 2^25, and the two argument arrays unchanged. -/
theorem run : θ_run defs (onTc (τ := τ) (main (F := Ideal))) ⟨m, fun _ => 0, ρ⟩ fun r => ∀ c : Dev nD,
      r.2.mem ((c.tc : Thread nD τ).loc main_v6)
        = (fun _ => Ideal.div (∑ i, sqArr (probs m c) (labs m c) i) (Ideal.ofBits .f32 0x4C000000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v6 v6_rest).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.ScaledSum.lean ====
/-
  Dividing sums of extended reals by positive real constants.

  Multiplication by a non-negative REAL factor distributes over any finite sum of extended reals, infinite terms
  included (only an infinite factor can break distributivity).  Division by a non-zero real is multiplication by its
  reciprocal.  So the mean of equally sized groups' means is the overall mean: dividing each of 32 group sums by
  2^20, adding them up and dividing by 32 is dividing the sum of the group sums by 2^25 — for every input, finite or
  not.
-/
import Idealize.ShloMosaic.PureOps.Ideal
import Idealize.ShloMosaic.PureOps.Ideal.Laws

noncomputable section

namespace Cert.MeanSq

open Idealize.ShloMosaic

/-- A finite sum times a non-negative real is the sum of the terms times it. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- The f32 pattern `0x4C000000` is 2^25 = 33554432. -/
theorem ofBits_2p25 : Ideal.ofBits .f32 0x4C000000#32 = ((33554432 : ℝ) : EReal) := by
  simp [Ideal.ofBits, Ideal.ieee, -EReal.coe_mul]; norm_num

/-- The f32 pattern `0x49800000` is 2^20 = 1048576. -/
theorem ofBits_2p20 : Ideal.ofBits .f32 0x49800000#32 = ((1048576 : ℝ) : EReal) := by
  simp [Ideal.ofBits, Ideal.ieee, -EReal.coe_mul]; norm_num

/-- The f32 pattern `0x42000000` is 32. -/
theorem ofBits_32 : Ideal.ofBits .f32 0x42000000#32 = ((32 : ℝ) : EReal) := by
  simp [Ideal.ofBits, Ideal.ieee, -EReal.coe_mul]; norm_num

/-- THE MEAN OF THE GROUP MEANS IS THE OVERALL MEAN.  Each group sum `S d` (from zero) divided by 2^20, these added up
    (from zero) and divided by 32, is the sum of the group sums divided by 2^25. -/
theorem mean_of_means {ι : Type*} [Fintype ι] (S : ι → EReal) :
    Ideal.div
        (Ideal.ofBits .f32 0x00000000#32
          + ∑ d, Ideal.div (Ideal.ofBits .f32 0x00000000#32 + S d) (Ideal.ofBits .f32 0x49800000#32))
        (Ideal.ofBits .f32 0x42000000#32)
      = Ideal.div (∑ d, S d) (Ideal.ofBits .f32 0x4C000000#32) := by
  rw [ofBits_2p25, ofBits_2p20, ofBits_32, Ideal.ofBits_zero_f32,
    Ideal.div_coe (show (32 : ℝ) ≠ 0 by norm_num), Ideal.div_coe (show (33554432 : ℝ) ≠ 0 by norm_num)]
  simp only [zero_add, Ideal.div_coe (show (1048576 : ℝ) ≠ 0 by norm_num)]
  rw [← sum_mul_coe _ _ _ (by norm_num), mul_assoc, ← EReal.coe_mul]
  congr 2
  norm_num

end Cert.MeanSq

end
-- ==== Proof.RefValue.lean ====
/-
  The reference's result on the extended reals: the sum of every squared error, divided by 2^25.

  The reference forms the one-hot labels as a [2, 32, 512, 512, 2] array (cleaned label compared with the channel
  iota), moves the channel axis to position 1, subtracts from the probabilities and squares: entry `i` of that array is
  the squared error `sqArr` at `i` — the one-hot entry read at `i` is the cleaned label at (batch, slice, row, column) of
  `i` compared with the channel of `i`.  It then sums over batch, channel, row and column for each slice, divides each of
  the 32 slice sums by 2^20, sums those and divides by 32: the mean of the slice means, which is the overall sum
  divided by 2^25 (the slice sums partition the whole sum by the slice coordinate).
-/
import proofs.«143228_j979252543807_1_alg».proof.Proof.Gen.ReferenceIdeal.Read
import proofs.«143228_j979252543807_1_alg».proof.Proof.SqErr
import proofs.«143228_j979252543807_1_alg».proof.Proof.ScaledSum
import Idealize.ShloMosaic.Lib.IdealHost

noncomputable section

open Idealize.ShloMosaic Idealize.ShloMosaic.TcCoe Idealize.SL.Sem

namespace Cert.ReferenceIdeal.RefValue

open Cert.ReferenceIdeal Cert.ReferenceIdeal.Gen Cert.ReferenceIdeal.Read Cert.MeanSq Idealize.ShloMosaic.ValueIdx

variable (x0 : (⟨S2x2x32x512x512, .f32⟩ : BufTy).Contents (Elt Ideal)) (x1 : (⟨S2x32x512x512, .i32⟩ : BufTy).Contents (Elt Ideal))

/-- The label the one-hot entry at `i` is built from sits at (batch, slice, row, column) of `i`. -/
theorem label_idx (i : S2x2x32x512x512.Idx) :
    idx_main_call2_v0 (idx_main_call2_v2 (idx_main_v5 i)) = ix4 (i 0) (i 2) (i 3) (i 4) := by
  funext a
  apply Fin.ext
  match a with
  | ⟨0, _⟩ => rfl
  | ⟨1, _⟩ => rfl
  | ⟨2, _⟩ => rfl
  | ⟨3, _⟩ => rfl

/-- Entry `i` of the squared-difference array is the squared error at `i`. -/
theorem elem_eq (i : S2x2x32x512x512.Idx) : val_main_v7 (F := Ideal) x0 x1 i = sqArr x0 x1 i := by
  rw [val_main_v7_apply, val_main_v6_apply, val_main_v5_apply, val_main_v4_apply, val_main_call2_v4_apply,
    val_main_call2_v2_apply, val_main_call2_v0_apply, val_main_v3_apply, val_main_call1_v4_apply,
    val_main_call1_v3_apply, val_main_c_2_apply, val_main_call1_v2_apply, val_main_call1_v1_apply,
    val_main_call1_v0_apply, val_main_c_1_apply, val_main_v2_apply, val_main_v1_apply, val_main_v0_apply,
    val_main_c_apply, val_main_call0_v1_apply, val_main_call0_v0_apply, val_main_c_0_apply,
    val_main_call2_v3_apply, val_main_call2_v1_apply, label_idx]
  rfl

/-- The sum over batch, channel, row and column at slice index `j`: zero plus the squared errors whose index reduces to
    `j`. -/
theorem slice_sum (j : S32.Idx) :
    val_main_v8 (F := Ideal) x0 x1 j
      = Ideal.ofBits .f32 0x00000000#32
        + ∑ i ∈ Finset.univ.filter (fun i => reducesTo_S2x2x32x512x512_S32_d0_1_3_4.drop i = j), sqArr x0 x1 i := by
  unfold val_main_v8
  rw [hostReduceAdd_apply]
  unfold Ideal.hostReduceAdd
  exact congrArg (fun z => Ideal.ofBits .f32 0x00000000#32 + z) (Finset.sum_congr rfl fun i _ => elem_eq x0 x1 i)

/-- THE REFERENCE'S RESULT: the sum of every squared error divided by 2^25. -/
theorem result_eq :
    val_main_v12 (F := Ideal) x0 x1 = fun _ => Ideal.div (∑ i, sqArr x0 x1 i) (Ideal.ofBits .f32 0x4C000000#32) := by
  funext i
  rw [val_main_v12_apply, val_main_v11_apply, val_main_cst_5_apply, val_main_cst_4_apply]
  simp only [val_main_v10_apply, val_main_v9_apply, val_main_cst_3_apply, slice_sum, Ideal.hostDivf_def, Ideal.ofBits_def]
  rw [mean_of_means, Finset.sum_fiberwise]

end Cert.ReferenceIdeal.RefValue

end
-- ==== Proof.lean ====
/-
  Both programs compute the mean squared error between a probabilities array P[batch, channel, slice, row, column]
  (2 × 2 × 32 × 512 × 512) and the one-hot encoding of a label array M[batch, slice, row, column] whose ignore value 2
  is first sent to 0 and which is then clamped into [0, 1].

  The kernel runs a 2 × 32 grid (batch, slice).  Each point sums the squared errors of its batch and slice over both
  channels, rows and columns, and adds that number into entry (0, 0) of the batch's [8, 128] output block, which it
  resets at the batch's first slice.  The host adds the two batches' entries and divides by 2^25, the number of
  elements.  The reference sums over batch, channel, row and column for each slice, divides each slice sum by 2^20,
  adds the 32 quotients and divides by 32.

  On the extended reals both are the sum of every squared error divided by 2^25: addition is commutative and
  associative at the infinities too, and multiplying by the reciprocal of a positive real constant distributes over any
  finite sum.  The precondition is not needed for this.

  Modules: SqErr (the squared error, the slabs), ScaledSum (the constants and the mean-of-means law), SlabSum and
  LibIdx5 (the points' sums add up to the whole sum), PointBody and PointSum (what one grid point leaves in the block),
  LibRowReduce and LibColReduce (a matrix summed one axis at a time), GridSum (the running sum along the grid),
  KernelResult (the final array, the host's tail, the kernel's run), RefValue (the reference's result).
-/
import proofs.«143228_j979252543807_1_alg».proof.Defs
import proofs.«143228_j979252543807_1_alg».proof.Proof.Gen.Kernel
import proofs.«143228_j979252543807_1_alg».proof.Proof.Gen.Kernel.Skeleton
import proofs.«143228_j979252543807_1_alg».proof.Proof.Gen.Kernel.Launch
import proofs.«143228_j979252543807_1_alg».proof.Proof.Gen.Kernel.Points
import proofs.«143228_j979252543807_1_alg».proof.Proof.Gen.Kernel.Frame
import proofs.«143228_j979252543807_1_alg».proof.Proof.Gen.KernelIdeal
import proofs.«143228_j979252543807_1_alg».proof.Proof.Gen.KernelIdeal.Skeleton
import proofs.«143228_j979252543807_1_alg».proof.Proof.Gen.KernelIdeal.Launch
import proofs.«143228_j979252543807_1_alg».proof.Proof.Gen.KernelIdeal.Points
import proofs.«143228_j979252543807_1_alg».proof.Proof.Gen.KernelIdeal.Frame
import proofs.«143228_j979252543807_1_alg».proof.Proof.Gen.ReferenceIdeal
import proofs.«143228_j979252543807_1_alg».proof.Proof.Gen.Pre_finite_inputs
import proofs.«143228_j979252543807_1_alg».proof.Proof.Gen.ReferenceIdeal.Run
import proofs.«143228_j979252543807_1_alg».proof.Proof.Gen.ReferenceIdeal.Read
import proofs.«143228_j979252543807_1_alg».proof.Proof.KernelResult
import proofs.«143228_j979252543807_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- On the extended reals the kernel's scalar and the reference's scalar are both the sum of every squared error
    divided by 2^25, of arguments that agree. -/
theorem algebraic : Cert.algebraic_KernelIdeal_ReferenceIdeal := by
  intro m ρ m' ρ' _ hagree
  refine ⟨fun c => fun _ => Ideal.div
      (∑ i, Cert.MeanSq.sqArr (Cert.KernelIdeal.GridSum.probs m c) (Cert.KernelIdeal.GridSum.labs m c) i)
      (Ideal.ofBits .f32 0x4C000000#32), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
